-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) (main_arg2 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x256 .f32 := Host.absf main_arg2
  let main_cst_2 : FVec F S_ .f32 := constant S_ .f32 0x7F800000#32
  let main_v10 : FVec F S16x2048x256 .f32 := broadcastInDim S16x2048x256 ![] bcast_S_S16x2048x256 main_cst_2
  let main_v11 : IVec S16x2048x256 1 := cmpf .olt main_v9 main_v10
  let main_c_3 : IVec S_ 1 := constantI S_ 1 1#1
  let main_v12 : IVec S_ 1 := (fun x v => Host.reduce IntOp.andi x v reducesTo_S16x2048x256_S_d0_1_2 h_S_) main_v11 main_c_3
  let main_v13 : IVec S_ 1 := andi main_v8 main_v12
  main_v13
-- ==== Kernel.lean ====
abbrev S16x2048x256 : Shape := ⟨3, ![16, 2048, 256]⟩
abbrev S16x2048x2048 : Shape := ⟨3, ![16, 2048, 2048]⟩
abbrev S1x1024x256 : Shape := ⟨3, ![1, 1024, 256]⟩
abbrev S1x2048x256 : Shape := ⟨3, ![1, 2048, 256]⟩
abbrev S1x1024x2048 : Shape := ⟨3, ![1, 1024, 2048]⟩
abbrev S1024x256 : Shape := ⟨2, ![1024, 256]⟩
abbrev S2048x256 : Shape := ⟨2, ![2048, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x2048, .f32⟩
  | .local _ .vmem, ⟨9, _⟩ => ⟨S1x1024x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x256_S1x1024x256 : S1024x256.ShapeCasts S1x1024x256
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x2048x256.size a
  hwx0_0 : ∀ i : grid0.Coords, EltTy.bits .f32 = 32 ∨ (Rect.block (s := S16x2048x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x256.size a
  hwx0_2 : ∀ i : grid0.Coords, EltTy.bits .f32 = 32 ∨ (Rect.block (s := S16x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x2048x256.size a
  hwx0_3 : ∀ i : grid0.Coords, EltTy.bits .f32 = 32 ∨ (Rect.block (s := S16x2048x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S16x2048x2048.size a
  hwx0_4 : ∀ i : grid0.Coords, EltTy.bits .f32 = 32 ∨ (Rect.block (s := S16x2048x2048) S1x1024x2048.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .i1⟩
  | .hbm, ⟨7, _⟩ => ⟨S_, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v5 : Ref sig .tc := ⟨.hbm, 26, rfl⟩
abbrev main_v6 : Ref sig .tc := ⟨.hbm, 27, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.LogAttention.lean ====
/-
  Attention with a logarithmic softmax over floored scores, one query row at a time, on the extended reals.

  For one query row `qr` (256 entries) and one table of 2048 key rows `K`:
  the score of key `j` is the dot product `Σ d, qr d · K j d`; a score below the floor 0.1 (the single-precision
  number nearest one tenth) is replaced by the floor, and the logit is the logarithm of the result; the row maximum
  `M` is the maximum of the 2048 logits, taken from −∞; the row sum `Z` is `Σ j, exp (logit j − M)`; and the
  logarithmic probability of key `j` is

      (logit j − M) − log Z          (the bracketing `logProb`)
      logit j − (M + log Z)          (the bracketing `logProb'`).

  The context entry of column `d` is `Σ j, logProb j · V j d`: the logarithmic probabilities themselves, not their
  exponentials, weigh the value rows. Over whole arrays, batch `b` and query position `i` select the query row
  `q (b, i, ·)`, the key table `k (b, ·, ·)` and the value table `v (b, ·, ·)`.

  On the extended reals the two bracketings agree as soon as the row maximum is a real number (then its negation
  distributes over `M + log Z`), which is the case when every query and key entry is real: each logit is then the
  logarithm of a positive real.
-/
import Idealize.ShloMosaic.PureOps.Ideal
import Idealize.ShloMosaic.Lib.ValueIdx

noncomputable section

open scoped BigOperators

namespace Cert.LogAttention

open Idealize.ShloMosaic Idealize.ShloMosaic.ValueIdx

/-! ## One query row against one key table -/

/-- The score of key `j`: the dot product of the query row with key row `j`. -/
def score (qr : Fin 256 → EReal) (K : Fin 2048 → Fin 256 → EReal) (j : Fin 2048) : EReal :=
  ∑ d : Fin 256, qr d * K j d

/-- The logit of key `j`: the logarithm of the score floored at 0.1 (a score below the floor is replaced by it). -/
def logit (qr : Fin 256 → EReal) (K : Fin 2048 → Fin 256 → EReal) (j : Fin 2048) : EReal :=
  Ideal.log (Scalar.select (Ideal.cmp .olt (score qr K j) (Ideal.ofBits .f32 0x3DCCCCCD#32))
    (Ideal.ofBits .f32 0x3DCCCCCD#32) (score qr K j))

/-- The row maximum: the maximum of the logits over the 2048 keys, starting from −∞. -/
def rowMax (qr : Fin 256 → EReal) (K : Fin 2048 → Fin 256 → EReal) : EReal :=
  (Finset.univ : Finset (Fin 2048)).fold max (Ideal.ofBits .f32 0xFF800000#32) (logit qr K)

/-- The row sum: the sum over the keys of the exponential of the logit less the row maximum. -/
def rowSum (qr : Fin 256 → EReal) (K : Fin 2048 → Fin 256 → EReal) : EReal :=
  ∑ j : Fin 2048, Ideal.exp (logit qr K j - rowMax qr K)

/-- The logarithmic probability of key `j`, bracketed `(logit − M) − log Z`. -/
def logProb (qr : Fin 256 → EReal) (K : Fin 2048 → Fin 256 → EReal) (j : Fin 2048) : EReal :=
  (logit qr K j - rowMax qr K) - Ideal.log (rowSum qr K)

/-- The logarithmic probability of key `j`, bracketed `logit − (M + log Z)`. -/
def logProb' (qr : Fin 256 → EReal) (K : Fin 2048 → Fin 256 → EReal) (j : Fin 2048) : EReal :=
  logit qr K j - (rowMax qr K + Ideal.log (rowSum qr K))

/-! ## Whole arrays: batch `b`, query position `i` -/

/-- The query row of batch `b` at position `i`. -/
def qRow (q : FVec Ideal ⟨3, ![16, 2048, 256]⟩ .f32) (b : Fin 16) (i : Fin 2048) : Fin 256 → EReal :=
  fun d => q (ix3 b i d)

/-- The table of batch `b`: its 2048 rows of 256 entries (keys, or values). -/
def table (k : FVec Ideal ⟨3, ![16, 2048, 256]⟩ .f32) (b : Fin 16) : Fin 2048 → Fin 256 → EReal :=
  fun j d => k (ix3 b j d)

/-- The attention array at batch `b`, query `i`, key `j` (bracketing `logProb`). -/
def attnAt (q k : FVec Ideal ⟨3, ![16, 2048, 256]⟩ .f32) (b : Fin 16) (i j : Fin 2048) : EReal :=
  logProb (qRow q b i) (table k b) j

/-- The context array at batch `b`, query `i`, column `d`: the attention row against the value table's column. -/
def ctxAt (q k v : FVec Ideal ⟨3, ![16, 2048, 256]⟩ .f32) (b : Fin 16) (i : Fin 2048) (d : Fin 256) : EReal :=
  ∑ j : Fin 2048, attnAt q k b i j * v (ix3 b j d)

/-- The attention array, as one function of the query and key arrays. -/
def attn (q k : FVec Ideal ⟨3, ![16, 2048, 256]⟩ .f32) : FVec Ideal ⟨3, ![16, 2048, 2048]⟩ .f32 :=
  fun x => attnAt q k ⟨(x 0).val, (x 0).isLt⟩ ⟨(x 1).val, (x 1).isLt⟩ ⟨(x 2).val, (x 2).isLt⟩

/-- The context array, as one function of the query, key and value arrays. -/
def ctx (q k v : FVec Ideal ⟨3, ![16, 2048, 256]⟩ .f32) : FVec Ideal ⟨3, ![16, 2048, 256]⟩ .f32 :=
  fun x => ctxAt q k v ⟨(x 0).val, (x 0).isLt⟩ ⟨(x 1).val, (x 1).isLt⟩ ⟨(x 2).val, (x 2).isLt⟩

/-- The same two arrays with the other bracketing of the logarithmic probability. -/
def attnAt' (q k : FVec Ideal ⟨3, ![16, 2048, 256]⟩ .f32) (b : Fin 16) (i j : Fin 2048) : EReal :=
  logProb' (qRow q b i) (table k b) j

def ctxAt' (q k v : FVec Ideal ⟨3, ![16, 2048, 256]⟩ .f32) (b : Fin 16) (i : Fin 2048) (d : Fin 256) : EReal :=
  ∑ j : Fin 2048, attnAt' q k b i j * v (ix3 b j d)

def attn' (q k : FVec Ideal ⟨3, ![16, 2048, 256]⟩ .f32) : FVec Ideal ⟨3, ![16, 2048, 2048]⟩ .f32 :=
  fun x => attnAt' q k ⟨(x 0).val, (x 0).isLt⟩ ⟨(x 1).val, (x 1).isLt⟩ ⟨(x 2).val, (x 2).isLt⟩

def ctx' (q k v : FVec Ideal ⟨3, ![16, 2048, 256]⟩ .f32) : FVec Ideal ⟨3, ![16, 2048, 256]⟩ .f32 :=
  fun x => ctxAt' q k v ⟨(x 0).val, (x 0).isLt⟩ ⟨(x 1).val, (x 1).isLt⟩ ⟨(x 2).val, (x 2).isLt⟩

theorem attn_ix3 (q k : FVec Ideal ⟨3, ![16, 2048, 256]⟩ .f32) (b : Fin 16) (i j : Fin 2048) :
    attn q k (ix3 b i j) = attnAt q k b i j := rfl

theorem ctx_ix3 (q k v : FVec Ideal ⟨3, ![16, 2048, 256]⟩ .f32) (b : Fin 16) (i : Fin 2048) (d : Fin 256) :
    ctx q k v (ix3 b i d) = ctxAt q k v b i d := rfl

theorem attn'_ix3 (q k : FVec Ideal ⟨3, ![16, 2048, 256]⟩ .f32) (b : Fin 16) (i j : Fin 2048) :
    attn' q k (ix3 b i j) = attnAt' q k b i j := rfl

theorem ctx'_ix3 (q k v : FVec Ideal ⟨3, ![16, 2048, 256]⟩ .f32) (b : Fin 16) (i : Fin 2048) (d : Fin 256) :
    ctx' q k v (ix3 b i d) = ctxAt' q k v b i d := rfl

end Cert.LogAttention

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.RowBody.lean ====
/-
  What the kernel body computes from its three loaded blocks, entry by entry, on the extended reals.

  The body loads a block of 1024 query rows, the batch's 2048 key rows and its 2048 value rows (each with a leading
  unit axis). Its first stored value, at row `r` and key `j`, is the logarithmic probability of key `j` for query
  row `r`, bracketed `logit − (M + log Z)`: the scores are the product of the query block with the transposed key
  block, floored and put through the logarithm; the row maximum and the row sum are reductions along the key axis,
  turned into columns and broadcast back along it. Its second stored value, at row `r` and column `d`, is the sum over
  the keys of those logarithmic probabilities times the value rows' column `d`.
-/
import proofs.«120412_j72799695667248_2_alg».proof.Proof.Gen.KernelIdeal.Skeleton
import proofs.«120412_j72799695667248_2_alg».proof.Proof.LogAttention
import proofs.«120412_j72799695667248_2_alg».proof.Proof.LibColumn
import proofs.«120412_j72799695667248_2_alg».proof.Proof.LibPlainDot
import proofs.«120412_j72799695667248_2_alg».proof.Proof.LibDotTransposed
import Idealize.ShloMosaic.Lib.ValueLayout
import Idealize.ShloMosaic.PureOps.Ideal.Laws

noncomputable section

open scoped BigOperators

namespace Cert.KernelIdeal.RowBody

open Cert.KernelIdeal Cert.KernelIdeal.Gen Idealize.ShloMosaic Idealize.ShloMosaic.ValueIdx Cert.LogAttention

/-- Query row `r` of a loaded query block. -/
def rowOf (P0 : Vec Ideal S1x1024x256 .f32) (r : Fin 1024) : Fin 256 → EReal := fun d => P0 (ix3 (0 : Fin 1) r d)

/-- The rows of a loaded key or value block, as a table. -/
def tableOf (P1 : Vec Ideal S1x2048x256 .f32) : Fin 2048 → Fin 256 → EReal := fun j d => P1 (ix3 (0 : Fin 1) j d)

/-! ## The stages of the first stored value -/

/-- The scores: the query block against the transposed key block. -/
def scores (P0 : Vec Ideal S1x1024x256 .f32) (P1 : Vec Ideal S1x2048x256 .f32) : FVec Ideal S1024x2048 .f32 :=
  matmul dot_S1024x256_S2048x256_S1024x2048_1_1_0_0_n_n none
    (shapeCast S1024x256 P0 shapeCasts_S1x1024x256_S1024x256 : FVec Ideal S1024x256 .f32)
    (shapeCast S2048x256 P1 shapeCasts_S1x2048x256_S2048x256 : FVec Ideal S2048x256 .f32)
    (constant S1024x2048 .f32 0x00000000#32)

/-- The logits: the logarithm of the floored scores. -/
def logits (P0 : Vec Ideal S1x1024x256 .f32) (P1 : Vec Ideal S1x2048x256 .f32) : FVec Ideal S1024x2048 .f32 :=
  log (select (cmpf .olt (scores P0 P1) (broadcast S1024x2048 (Scalar.ofBits (F := Ideal) .f32 0x3DCCCCCD#32) : FVec Ideal S1024x2048 .f32))
    (broadcast S1024x2048 (Scalar.ofBits (F := Ideal) .f32 0x3DCCCCCD#32) : FVec Ideal S1024x2048 .f32) (scores P0 P1))

/-- The row maxima, as a column. -/
def maxCol (P0 : Vec Ideal S1x1024x256 .f32) (P1 : Vec Ideal S1x2048x256 .f32) : FVec Ideal S1024x1 .f32 :=
  shapeCast S1024x1
    (multiReduction .maximumf [1] S1024 (logits P0 P1) 0xFF800000#32 reduces_S1024x2048_S1024 (.inl rfl) rfl : FVec Ideal S1024 .f32)
    shapeCasts_S1024_S1024x1

/-- The row sums, as a column. -/
def sumCol (P0 : Vec Ideal S1x1024x256 .f32) (P1 : Vec Ideal S1x2048x256 .f32) : FVec Ideal S1024x1 .f32 :=
  shapeCast S1024x1
    (multiReduction .add [1] S1024
      (exp (subf (logits P0 P1) (broadcastTo S1024x2048 (maxCol P0 P1) broadcasts_S1024x1_S1024x2048 : FVec Ideal S1024x2048 .f32)))
      0x00000000#32 reduces_S1024x2048_S1024 (.inl rfl) rfl : FVec Ideal S1024 .f32)
    shapeCasts_S1024_S1024x1

/-- The first stored value is the logits less the broadcast column `M + log Z`. -/
theorem pay1_stages (P0 : Vec Ideal S1x1024x256 .f32) (P1 : Vec Ideal S1x2048x256 .f32) :
    k0_pay1 P0 P1 = subf (logits P0 P1)
      (broadcastTo S1024x2048 (addf (maxCol P0 P1) (log (sumCol P0 P1)) : FVec Ideal S1024x1 .f32)
        broadcasts_S1024x1_S1024x2048 : FVec Ideal S1024x2048 .f32) := rfl

/-! ## Each stage at an index -/

theorem dot1_lhs0 (j : S1024x2048.Idx) (c : dot_S1024x256_S2048x256_S1024x2048_1_1_0_0_n_n.contr.Idx) :
    (dot_S1024x256_S2048x256_S1024x2048_1_1_0_0_n_n.lhsIdx j c 0).val = (j 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

theorem dot1_rhs0 (j : S1024x2048.Idx) (c : dot_S1024x256_S2048x256_S1024x2048_1_1_0_0_n_n.contr.Idx) :
    (dot_S1024x256_S2048x256_S1024x2048_1_1_0_0_n_n.rhsIdx j c 0).val = (j 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- The score at row `r`, key `j` is the dot product of query row `r` with key row `j`. -/
theorem scores_at (P0 : Vec Ideal S1x1024x256 .f32) (P1 : Vec Ideal S1x2048x256 .f32) (r : Fin 1024) (j : Fin 2048) :
    scores P0 P1 (ix2 r j) = score (rowOf P0 r) (tableOf P1) j := by
  unfold scores
  refine (Cert.LibDotTransposed.matmul_zero_apply dot_S1024x256_S2048x256_S1024x2048_1_1_0_0_n_n rfl rfl dot1_lhs0 dot1_rhs0
    rfl rfl none _ _ r j).trans ?_
  unfold score rowOf tableOf
  refine Finset.sum_congr rfl fun d _ => ?_
  rw [shapeCast_1ab_ab_apply, shapeCast_1ab_ab_apply]

/-- The logit at row `r`, key `j`. -/
theorem logits_at (P0 : Vec Ideal S1x1024x256 .f32) (P1 : Vec Ideal S1x2048x256 .f32) (r : Fin 1024) (j : Fin 2048) :
    logits P0 P1 (ix2 r j) = logit (rowOf P0 r) (tableOf P1) j := by
  show Ideal.log (Scalar.select (Ideal.cmp .olt (scores P0 P1 (ix2 r j)) (Ideal.ofBits .f32 0x3DCCCCCD#32))
    (Ideal.ofBits .f32 0x3DCCCCCD#32) (scores P0 P1 (ix2 r j))) = _
  rw [scores_at]
  rfl

/-- A maximum along the key axis, from −∞, at row `r`: the maximum over the 2048 keys of the row's entries. -/
theorem max_axis1_at (src : FVec Ideal S1024x2048 .f32) (hφ : FKind.Formats .f32)
    (hacc : (0xFF800000#32 : BitVec 32) = FKind.maximumf.neutral .f32 hφ) (r : Fin 1024) :
    multiReduction .maximumf [1] S1024 src 0xFF800000#32 reduces_S1024x2048_S1024 hφ hacc (ix1 r)
      = (Finset.univ : Finset (Fin 2048)).fold max (Ideal.ofBits .f32 0xFF800000#32) (fun j => src (ix2 r j)) := by
  refine (Ideal.multiReduction_maximumf_single src 0xFF800000#32 reduces_S1024x2048_S1024 hφ hacc (ix1 r)).trans ?_
  refine Finset.fold_congr fun k _ => ?_
  exact congrArg src (funext fun a => Fin.ext (by match a with | ⟨0, _⟩ => rfl | ⟨1, _⟩ => rfl))

/-- A sum along the key axis at row `r`: the sum over the 2048 keys of the row's entries. -/
theorem sum_axis1_at (src : FVec Ideal S1024x2048 .f32) (hφ : FKind.Formats .f32)
    (hacc : (0x00000000#32 : BitVec 32) = FKind.add.neutral .f32 hφ) (r : Fin 1024) :
    multiReduction .add [1] S1024 src 0x00000000#32 reduces_S1024x2048_S1024 hφ hacc (ix1 r)
      = ∑ j : Fin 2048, src (ix2 r j) := by
  refine (Ideal.multiReduction_add_single src 0x00000000#32 reduces_S1024x2048_S1024 hφ hacc (ix1 r)).trans ?_
  refine Finset.sum_congr rfl fun k _ => ?_
  exact congrArg src (funext fun a => Fin.ext (by match a with | ⟨0, _⟩ => rfl | ⟨1, _⟩ => rfl))

/-- The logarithm of a vector at an index. -/
theorem log_at {s : Shape} {φ : FTy} (v : FVec Ideal s φ) (i : s.Idx) : log v i = Ideal.log (v i) := rfl

/-- The column of row maxima at row `r`. -/
theorem maxCol_at (P0 : Vec Ideal S1x1024x256 .f32) (P1 : Vec Ideal S1x2048x256 .f32) (r : Fin 1024) (u : Fin 1) :
    maxCol P0 P1 (ix2 r u) = rowMax (rowOf P0 r) (tableOf P1) := by
  unfold maxCol
  refine (Cert.LibColumn.shapeCast_a_a1_apply _ shapeCasts_S1024_S1024x1 r u).trans ?_
  refine (max_axis1_at (logits P0 P1) _ _ r).trans ?_
  unfold rowMax
  exact Finset.fold_congr fun j _ => logits_at P0 P1 r j

/-- The column of row sums at row `r`. -/
theorem sumCol_at (P0 : Vec Ideal S1x1024x256 .f32) (P1 : Vec Ideal S1x2048x256 .f32) (r : Fin 1024) (u : Fin 1) :
    sumCol P0 P1 (ix2 r u) = rowSum (rowOf P0 r) (tableOf P1) := by
  unfold sumCol
  refine (Cert.LibColumn.shapeCast_a_a1_apply _ shapeCasts_S1024_S1024x1 r u).trans ?_
  refine (sum_axis1_at _ _ _ r).trans ?_
  unfold rowSum
  refine Finset.sum_congr rfl fun j _ => ?_
  show Ideal.exp (logits P0 P1 (ix2 r j) - broadcastTo S1024x2048 (maxCol P0 P1) broadcasts_S1024x1_S1024x2048 (ix2 r j)) = _
  rw [logits_at, Cert.LibColumn.broadcastTo_a1_ab_apply, maxCol_at]

/-- THE FIRST STORED VALUE at row `r`, key `j`: the logarithmic probability, bracketed `logit − (M + log Z)`. -/
theorem pay1_at (P0 : Vec Ideal S1x1024x256 .f32) (P1 : Vec Ideal S1x2048x256 .f32) (r : Fin 1024) (j : Fin 2048) :
    k0_pay1 P0 P1 (ix2 r j) = logProb' (rowOf P0 r) (tableOf P1) j := by
  rw [pay1_stages, subf_apply, Cert.LibColumn.broadcastTo_a1_ab_apply, addf_apply, log_at, logits_at, maxCol_at, sumCol_at]
  rfl

/-- The first stored block (with its leading unit axis) at `(u, r, j)`. -/
theorem pay2_at (P0 : Vec Ideal S1x1024x256 .f32) (P1 : Vec Ideal S1x2048x256 .f32) (u : Fin 1) (r : Fin 1024) (j : Fin 2048) :
    k0_pay2 P0 P1 (ix3 u r j) = logProb' (rowOf P0 r) (tableOf P1) j := by
  rw [show k0_pay2 P0 P1 = shapeCast S1x1024x2048 (k0_pay1 P0 P1) shapeCasts_S1024x2048_S1x1024x2048 from rfl,
    shapeCast_ab_1ab_apply, pay1_at]

/-! ## The second stored value -/

theorem dot2_lhs0 (j : S1024x256.Idx) (c : dot_S1024x2048_S2048x256_S1024x256_1_0_0_1_n_n.contr.Idx) :
    (dot_S1024x2048_S2048x256_S1024x256_1_0_0_1_n_n.lhsIdx j c 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem dot2_rhs1 (j : S1024x256.Idx) (c : dot_S1024x2048_S2048x256_S1024x256_1_0_0_1_n_n.contr.Idx) :
    (dot_S1024x2048_S2048x256_S1024x256_1_0_0_1_n_n.rhsIdx j c 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The second stored block is the first stored value against the value block, with a leading unit axis. -/
theorem pay3_stages (P0 : Vec Ideal S1x1024x256 .f32) (P1 P2 : Vec Ideal S1x2048x256 .f32) :
    k0_pay3 P0 P1 P2 = shapeCast S1x1024x256
      (matmul dot_S1024x2048_S2048x256_S1024x256_1_0_0_1_n_n none (k0_pay1 P0 P1)
        (shapeCast S2048x256 P2 shapeCasts_S1x2048x256_S2048x256 : FVec Ideal S2048x256 .f32)
        (constant S1024x256 .f32 0x00000000#32) : FVec Ideal S1024x256 .f32)
      shapeCasts_S1024x256_S1x1024x256 := rfl

/-- THE SECOND STORED VALUE at `(u, r, d)`: the sum over the keys of the logarithmic probability times the value
    rows' column `d`. -/
theorem pay3_at (P0 : Vec Ideal S1x1024x256 .f32) (P1 P2 : Vec Ideal S1x2048x256 .f32) (u : Fin 1) (r : Fin 1024) (d : Fin 256) :
    k0_pay3 P0 P1 P2 (ix3 u r d) = ∑ j : Fin 2048, logProb' (rowOf P0 r) (tableOf P1) j * tableOf P2 j d := by
  rw [pay3_stages, shapeCast_ab_1ab_apply]
  refine (Cert.LibPlainDot.matmul_zero_apply dot_S1024x2048_S2048x256_S1024x256_1_0_0_1_n_n rfl rfl dot2_lhs0 dot2_rhs1
    rfl rfl none _ _ r d).trans ?_
  refine Finset.sum_congr rfl fun j _ => ?_
  rw [pay1_at, shapeCast_1ab_ab_apply]
  rfl

end Cert.KernelIdeal.RowBody

end
-- ==== Proof.Blocks.lean ====
/-
  From the blocks each grid point writes back to the two whole result arrays.

  The grid has 16 × 2 points: batch `b` and half `h` of the 2048 query positions. At a point the query window is
  the 1024 query rows `h·1024 … h·1024 + 1023` of batch `b`, the key and value windows are the whole tables of batch
  `b`, and the two result windows are the same 1024 rows of batch `b` in the context and attention arrays. So what a
  point writes back is the restriction, to its block, of ONE function of the three argument arrays — the attention
  and context arrays of the logarithmic softmax, with the bracketing `logit − (M + log Z)` —, and since the 32
  blocks tile each result array, the arrays end holding that function.
-/
import proofs.«120412_j72799695667248_2_alg».proof.Proof.Gen.KernelIdeal.Value
import proofs.«120412_j72799695667248_2_alg».proof.Proof.RowBody

noncomputable section

open scoped BigOperators

namespace Cert.KernelIdeal.Blocks

open Cert.KernelIdeal Cert.KernelIdeal.Gen Cert.KernelIdeal.RowBody Cert.LogAttention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-! ## The index maps over the grid -/

/-- The result windows' block index at a point: a batch below 16, a half below 2, and 0 along the last axis. -/
theorem idx_out : ∀ t : Fin cfg0.N, win0_4.index t (0 : Fin 3) < 16 ∧ win0_4.index t (1 : Fin 3) < 2 ∧ win0_4.index t (2 : Fin 3) = 0 :=
  (by decide +kernel : ∀ t : Fin grid0.N, win0_4.index t (0 : Fin 3) < 16 ∧ win0_4.index t (1 : Fin 3) < 2 ∧ win0_4.index t (2 : Fin 3) = 0)

/-- The query and context windows move with the attention window; the key and value windows follow its batch only. -/
theorem idx_in : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0 :=
  (by decide +kernel : ∀ t : Fin grid0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0)

/-- Every batch and half is some point's. -/
theorem idx_onto : ∀ (q0 : Fin 16) (q1 : Fin 2), ∃ t : Fin cfg0.N, win0_4.index t (0 : Fin 3) = q0.val ∧ win0_4.index t (1 : Fin 3) = q1.val :=
  (by decide +kernel : ∀ (q0 : Fin 16) (q1 : Fin 2), ∃ t : Fin grid0.N, win0_4.index t (0 : Fin 3) = q0.val ∧ win0_4.index t (1 : Fin 3) = q1.val)

/-- The batch of a point. -/
def bat (t : Fin cfg0.N) : Fin 16 := ⟨win0_4.index t (0 : Fin 3), (idx_out t).1⟩

/-- The query position of row `r` of a point's block. -/
def pos (t : Fin cfg0.N) (r : Fin 1024) : Fin 2048 :=
  ⟨win0_4.index t (1 : Fin 3) * 1024 + r.val, by have := (idx_out t).2.1; have := r.isLt; omega⟩

/-! ## Where a block's element sits in its array -/

theorem emb0 (t : Fin cfg0.N) (u : Fin 1) (r : Fin 1024) (d : Fin 256) :
    ((cfg0.win 0).blk t).view.emb (ix3 u r d) = (ix3 (bat t) (pos t r) d : S16x2048x256.Idx) := by
  obtain ⟨e0, e1, e2, -⟩ := idx_in t
  funext a; apply Fin.ext
  match a with
  | ⟨0, _⟩ => show win0_0.index t (0 : Fin 3) * 1 + 1 * u.val = win0_4.index t (0 : Fin 3); have := u.isLt; omega
  | ⟨1, _⟩ => show win0_0.index t (1 : Fin 3) * 1024 + 1 * r.val = win0_4.index t (1 : Fin 3) * 1024 + r.val; omega
  | ⟨2, _⟩ => show win0_0.index t (2 : Fin 3) * 256 + 1 * d.val = d.val; omega

theorem emb1 (t : Fin cfg0.N) (u : Fin 1) (j : Fin 2048) (d : Fin 256) :
    ((cfg0.win 1).blk t).view.emb (ix3 u j d) = (ix3 (bat t) j d : S16x2048x256.Idx) := by
  obtain ⟨-, -, -, e0, e1, e2, -⟩ := idx_in t
  funext a; apply Fin.ext
  match a with
  | ⟨0, _⟩ => show win0_1.index t (0 : Fin 3) * 1 + 1 * u.val = win0_4.index t (0 : Fin 3); have := u.isLt; omega
  | ⟨1, _⟩ => show win0_1.index t (1 : Fin 3) * 2048 + 1 * j.val = j.val; omega
  | ⟨2, _⟩ => show win0_1.index t (2 : Fin 3) * 256 + 1 * d.val = d.val; omega

theorem emb2 (t : Fin cfg0.N) (u : Fin 1) (j : Fin 2048) (d : Fin 256) :
    ((cfg0.win 2).blk t).view.emb (ix3 u j d) = (ix3 (bat t) j d : S16x2048x256.Idx) := by
  obtain ⟨-, -, -, -, -, -, e0, e1, e2, -⟩ := idx_in t
  funext a; apply Fin.ext
  match a with
  | ⟨0, _⟩ => show win0_2.index t (0 : Fin 3) * 1 + 1 * u.val = win0_4.index t (0 : Fin 3); have := u.isLt; omega
  | ⟨1, _⟩ => show win0_2.index t (1 : Fin 3) * 2048 + 1 * j.val = j.val; omega
  | ⟨2, _⟩ => show win0_2.index t (2 : Fin 3) * 256 + 1 * d.val = d.val; omega

theorem emb3 (t : Fin cfg0.N) (u : Fin 1) (r : Fin 1024) (d : Fin 256) :
    ((cfg0.win 3).blk t).view.emb (ix3 u r d) = (ix3 (bat t) (pos t r) d : S16x2048x256.Idx) := by
  obtain ⟨-, -, -, -, -, -, -, -, -, e0, e1, e2⟩ := idx_in t
  funext a; apply Fin.ext
  match a with
  | ⟨0, _⟩ => show win0_3.index t (0 : Fin 3) * 1 + 1 * u.val = win0_4.index t (0 : Fin 3); have := u.isLt; omega
  | ⟨1, _⟩ => show win0_3.index t (1 : Fin 3) * 1024 + 1 * r.val = win0_4.index t (1 : Fin 3) * 1024 + r.val; omega
  | ⟨2, _⟩ => show win0_3.index t (2 : Fin 3) * 256 + 1 * d.val = d.val; omega

theorem emb4 (t : Fin cfg0.N) (u : Fin 1) (r : Fin 1024) (j : Fin 2048) :
    ((cfg0.win 4).blk t).view.emb (ix3 u r j) = (ix3 (bat t) (pos t r) j : S16x2048x2048.Idx) := by
  obtain ⟨-, -, e2⟩ := idx_out t
  funext a; apply Fin.ext
  match a with
  | ⟨0, _⟩ => show win0_4.index t (0 : Fin 3) * 1 + 1 * u.val = win0_4.index t (0 : Fin 3); have := u.isLt; omega
  | ⟨1, _⟩ => show win0_4.index t (1 : Fin 3) * 1024 + 1 * r.val = win0_4.index t (1 : Fin 3) * 1024 + r.val; omega
  | ⟨2, _⟩ => show win0_4.index t (2 : Fin 3) * 2048 + 1 * j.val = j.val; omega

/-! ## The input blocks at a point are rows of the argument arrays -/

/-- The query block's row `r` at point `t` is the query array's row at batch `bat t`, position `pos t r`. -/
theorem qblock_row (c : Dev nD) (t : Fin cfg0.N) (r : Fin 1024) :
    rowOf (iblk m c 0 t) r = qRow (V m c main_arg0) (bat t) (pos t r) := funext fun d => by
  show V m c main_arg0 (((cfg0.win 0).blk t).view.emb (ix3 (0 : Fin 1) r d)) = V m c main_arg0 (ix3 (bat t) (pos t r) d)
  rw [emb0]

/-- The key block at point `t` is the key array's table of batch `bat t`. -/
theorem kblock_table (c : Dev nD) (t : Fin cfg0.N) :
    tableOf (iblk m c 1 t) = table (V m c main_arg1) (bat t) := funext fun j => funext fun d => by
  show V m c main_arg1 (((cfg0.win 1).blk t).view.emb (ix3 (0 : Fin 1) j d)) = V m c main_arg1 (ix3 (bat t) j d)
  rw [emb1]

/-- The value block at point `t` is the value array's table of batch `bat t`. -/
theorem vblock_table (c : Dev nD) (t : Fin cfg0.N) :
    tableOf (iblk m c 2 t) = table (V m c main_arg2) (bat t) := funext fun j => funext fun d => by
  show V m c main_arg2 (((cfg0.win 2).blk t).view.emb (ix3 (0 : Fin 1) j d)) = V m c main_arg2 (ix3 (bat t) j d)
  rw [emb2]

/-! ## What a point writes back -/

/-- Point `t` writes back block `t` of the attention array of the argument arrays. -/
theorem flushed4_eq (c : Dev nD) (t : Fin cfg0.N) :
    (dats m 0 c).flushed 4 t
      = ((cfg0.win 4).blk t).view.read (Elt Ideal) (attn' (V m c main_arg0) (V m c main_arg1)) := by
  rw [Cert.KernelIdeal.Value.flushed4]
  unfold out0_4
  rw [View.canon_unit_zero zeros3]
  simp only [View.ld_unit_zero (S := S1x1024x256) zeros3, View.ld_unit_zero (S := S1x2048x256) zeros3]
  funext y
  obtain ⟨u, r, j, rfl⟩ : ∃ (u : Fin 1) (r : Fin 1024) (j : Fin 2048), y = ix3 u r j := ⟨y 0, y 1, y 2, eq_ix3 y⟩
  show k0_pay2 (iblk m c 0 t) (iblk m c 1 t) (ix3 u r j)
    = attn' (V m c main_arg0) (V m c main_arg1) (((cfg0.win 4).blk t).view.emb (ix3 u r j))
  rw [emb4, attn'_ix3]
  refine (pay2_at (iblk m c 0 t) (iblk m c 1 t) u r j).trans ?_
  unfold attnAt'
  rw [qblock_row, kblock_table]

/-- Point `t` writes back block `t` of the context array of the argument arrays. -/
theorem flushed3_eq (c : Dev nD) (t : Fin cfg0.N) :
    (dats m 0 c).flushed 3 t
      = ((cfg0.win 3).blk t).view.read (Elt Ideal) (ctx' (V m c main_arg0) (V m c main_arg1) (V m c main_arg2)) := by
  rw [Cert.KernelIdeal.Value.flushed3]
  unfold out0_3
  rw [View.canon_unit_zero zeros3]
  simp only [View.ld_unit_zero (S := S1x1024x256) zeros3, View.ld_unit_zero (S := S1x2048x256) zeros3]
  funext y
  obtain ⟨u, r, d, rfl⟩ : ∃ (u : Fin 1) (r : Fin 1024) (d : Fin 256), y = ix3 u r d := ⟨y 0, y 1, y 2, eq_ix3 y⟩
  show k0_pay3 (iblk m c 0 t) (iblk m c 1 t) (iblk m c 2 t) (ix3 u r d)
    = ctx' (V m c main_arg0) (V m c main_arg1) (V m c main_arg2) (((cfg0.win 3).blk t).view.emb (ix3 u r d))
  rw [emb3, ctx'_ix3]
  refine (pay3_at (iblk m c 0 t) (iblk m c 1 t) (iblk m c 2 t) u r d).trans ?_
  unfold ctxAt' attnAt'
  rw [qblock_row, kblock_table, vblock_table]
  rfl

/-! ## The blocks tile the arrays -/

theorem mem_blk4 (t : Fin cfg0.N) (i : S16x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v0_1).slice (win0_4.rect t)).set ↔ _
  rw [View.set_slice_whole, Rect.mem_set_unit]
  exact Iff.rfl

theorem mem_blk3 (t : Fin cfg0.N) (i : S16x2048x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v0_0).slice (win0_3.rect t)).set ↔ _
  rw [View.set_slice_whole, Rect.mem_set_unit]
  exact Iff.rfl

/-- Every index of the attention array is in the block of the point of its batch and half. -/
theorem cover4 (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, q0, q1⟩ := idx_onto ⟨(i 0).val, hi0⟩ ⟨(i 1).val / 1024, by omega⟩
  have q0' : win0_4.index t (0 : Fin 3) = (i 0).val := q0
  have q1' : win0_4.index t (1 : Fin 3) = (i 1).val / 1024 := q1
  obtain ⟨-, -, q2⟩ := idx_out t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Every index of the context array is in the block of the point of its batch and half. -/
theorem cover3 (i : S16x2048x256.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 256 := (i 2).isLt
  obtain ⟨t, q0, q1⟩ := idx_onto ⟨(i 0).val, hi0⟩ ⟨(i 1).val / 1024, by omega⟩
  have q0' : win0_4.index t (0 : Fin 3) = (i 0).val := q0
  have q1' : win0_4.index t (1 : Fin 3) = (i 1).val / 1024 := q1
  obtain ⟨-, -, -, -, -, -, -, -, -, e0, e1, e2⟩ := idx_in t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-! ## The arrays after the run -/

/-- The attention array after the run. -/
theorem final4 (c : Dev nD) : (dats m 0 c).arrAt 4 cfg0.N = attn' (V m c main_arg0) (V m c main_arg1) :=
  (dats m 0 c).arrAt_eq_of_cover 4 _ (fun t _ => flushed4_eq m c t) cover4

/-- The context array after the run. -/
theorem final3 (c : Dev nD) :
    (dats m 0 c).arrAt 3 cfg0.N = ctx' (V m c main_arg0) (V m c main_arg1) (V m c main_arg2) :=
  (dats m 0 c).arrAt_eq_of_cover 3 _ (fun t _ => flushed3_eq m c t) cover3

/-- The kernel's run: the two result arrays end at the context and attention arrays of the argument arrays (the
    logarithmic probabilities bracketed `logit − (M + log Z)`), the arguments unchanged. -/
theorem run : θ_run defs (onTc (τ := τ) (main (F := Ideal))) ⟨m, fun _ => 0, ρ⟩ fun r => ∀ c : Dev nD,
      r.2.mem ((c : Thread nD τ).loc main_v0_0)
        = ctx' (m ((c : Thread nD τ).loc main_arg0)) (m ((c : Thread nD τ).loc main_arg1)) (m ((c : Thread nD τ).loc main_arg2))
      ∧ r.2.mem ((c : Thread nD τ).loc main_v0_1)
        = attn' (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Blocks

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.RefValue.lean ====
/-
  The reference's two results are the attention and context arrays of the logarithmic softmax.

  Operation by operation the reference computes, at batch `b`, query `i`, key `j`: the score as the batched product's
  sum over the 256 entries of the query and key rows; the floored score's logarithm; the row maximum as a reduction
  along the key axis from −∞ (taken once more against −∞, which changes nothing); the row sum of the exponentials of the
  logits less the maximum, from 0; and `(logit − M) − log Z`. Its context is the batched product of that array with
  the value array: at `(b, i, d)` the sum over the keys `j`.
-/
import proofs.«120412_j72799695667248_2_alg».proof.Proof.RefRead
import proofs.«120412_j72799695667248_2_alg».proof.Proof.LogAttention

noncomputable section

open scoped BigOperators

namespace Cert.ReferenceIdeal.RefValue

open Cert.ReferenceIdeal Cert.ReferenceIdeal.Gen Cert.ReferenceIdeal.Read Cert.LogAttention
open Idealize.ShloMosaic Idealize.ShloMosaic.ValueIdx

variable (x0 x1 x2 : FVec Ideal S16x2048x256 .f32)

/-- The batched product of queries and keys at `(b, i, j)` is the score of key `j` for query row `(b, i)`. -/
theorem score_eq (b : Fin 16) (i j : Fin 2048) :
    val_main_v0 (F := Ideal) x0 x1 (ix3 b i j) = score (qRow x0 b i) (table x1 b) j := by
  rw [val_main_v0_apply]
  unfold score qRow table
  refine Finset.sum_congr rfl fun d _ => ?_
  have el : lidx_main_v0 (ix3 b i j) d = ix3 b i d :=
    funext fun a => Fin.ext (by match a with | ⟨0, _⟩ => rfl | ⟨1, _⟩ => rfl | ⟨2, _⟩ => rfl)
  have er : ridx_main_v0 (ix3 b i j) d = ix3 b j d :=
    funext fun a => Fin.ext (by match a with | ⟨0, _⟩ => rfl | ⟨1, _⟩ => rfl | ⟨2, _⟩ => rfl)
  rw [el, er]

/-- The logarithm of the floored scores at `(b, i, j)` is the logit. -/
theorem logit_eq (b : Fin 16) (i j : Fin 2048) :
    val_main_v4 (F := Ideal) x0 x1 (ix3 b i j) = logit (qRow x0 b i) (table x1 b) j := by
  rw [val_main_v4_apply, val_main_v3_apply, val_main_v2_apply, val_main_v1_apply, val_main_call0_v1_apply, score_eq]
  rfl

/-- A maximum along the last axis of a [16, 2048, 2048] array at `(b, i)`: the maximum, from the start value, over the
    2048 entries `(b, i, ·)`. -/
theorem max_axis2_at (x : FVec Ideal S16x2048x2048 .f32) (init : FVec Ideal S_ .f32) (b : Fin 16) (i : Fin 2048) :
    Host.reduce (FloatOps.maximumf (F := Ideal) (φ := .f32)) x init reducesTo_S16x2048x2048_S16x2048_d2 h_S_ (ix2 b i)
      = (Finset.univ : Finset (Fin 2048)).fold max (init (Shape.Idx.first h_S_)) (fun j => x (ix3 b i j)) := by
  have hred : S16x2048x2048.Reduces [2] S16x2048 := by decide
  refine (Host.reduce_eq_fold_single (FloatOps.maximumf (F := Ideal) (φ := .f32)) x init
    reducesTo_S16x2048x2048_S16x2048_d2 hred h_S_ (ix2 b i)).trans ?_
  refine Finset.fold_congr fun k _ => ?_
  exact congrArg x (funext fun a => Fin.ext (by match a with | ⟨0, _⟩ => rfl | ⟨1, _⟩ => rfl | ⟨2, _⟩ => rfl))

/-- The reduction along the key axis, taken once more against −∞, at `(b, i)` is the row maximum. -/
theorem rowMax_eq (b : Fin 16) (i : Fin 2048) :
    val_main_call1_v2 (F := Ideal) x0 x1 (ix2 b i) = rowMax (qRow x0 b i) (table x1 b) := by
  have hfold : val_main_call1_v0 (F := Ideal) x0 x1 (ix2 b i)
      = (Finset.univ : Finset (Fin 2048)).fold max (Ideal.ofBits .f32 0xFF800000#32) (logit (qRow x0 b i) (table x1 b)) := by
    unfold val_main_call1_v0
    refine (max_axis2_at _ _ b i).trans ?_
    exact Finset.fold_congr fun k _ => logit_eq x0 x1 b i k
  rw [val_main_call1_v2_apply, val_main_call1_v1_apply, hfold]
  unfold rowMax
  exact max_eq_right ((Finset.le_fold_max _).2 (Or.inl (le_refl _)))

/-- The sum along the key axis at `(b, i)` is the row sum. -/
theorem rowSum_eq (b : Fin 16) (i : Fin 2048) :
    val_main_call1_v7 (F := Ideal) x0 x1 (ix2 b i) = rowSum (qRow x0 b i) (table x1 b) := by
  rw [val_main_call1_v7_apply]
  unfold rowSum
  refine (congrArg (· + _) (show val_main_call1_cst_1 (F := Ideal) (Shape.Idx.first h_S_) = 0 from Ideal.ofBits_zero_f32)).trans ?_
  rw [zero_add]
  refine Finset.sum_congr rfl fun j _ => ?_
  have ei : idx_main_call1_v7 (ix2 b i) j = ix3 b i j :=
    funext fun a => Fin.ext (by match a with | ⟨0, _⟩ => rfl | ⟨1, _⟩ => rfl | ⟨2, _⟩ => rfl)
  have em : idx_main_call1_v3 (idx_main_call1_v4 (ix3 b i j)) = ix2 b i :=
    funext fun a => Fin.ext (by match a with | ⟨0, _⟩ => rfl | ⟨1, _⟩ => rfl)
  rw [ei, val_main_call1_v6_apply, val_main_call1_v5_apply, val_main_call1_v4_apply, val_main_call1_v3_apply, em,
    logit_eq, rowMax_eq]
  rfl

/-- THE REFERENCE'S ATTENTION RESULT is the attention array. -/
theorem attn_eq : val_main_v5 (F := Ideal) x0 x1 = attn x0 x1 := by
  funext x
  obtain ⟨b, i, j, rfl⟩ : ∃ (b : Fin 16) (i : Fin 2048) (j : Fin 2048), x = ix3 b i j := ⟨x 0, x 1, x 2, eq_ix3 x⟩
  rw [attn_ix3]
  unfold attnAt logProb
  have em : idx_main_call1_v3 (idx_main_call1_v4 (ix3 b i j)) = ix2 b i :=
    funext fun a => Fin.ext (by match a with | ⟨0, _⟩ => rfl | ⟨1, _⟩ => rfl)
  have es : idx_main_call1_v8 (idx_main_call1_v10 (ix3 b i j)) = ix2 b i :=
    funext fun a => Fin.ext (by match a with | ⟨0, _⟩ => rfl | ⟨1, _⟩ => rfl)
  rw [val_main_v5_apply, val_main_call1_v5_apply, val_main_call1_v4_apply, val_main_call1_v3_apply, em,
    val_main_call1_v10_apply, val_main_call1_v9_apply, val_main_call1_v8_apply, es, logit_eq, rowMax_eq, rowSum_eq]
  rfl

/-- THE REFERENCE'S CONTEXT RESULT is the context array. -/
theorem ctx_eq : val_main_v6 (F := Ideal) x0 x1 x2 = ctx x0 x1 x2 := by
  funext x
  obtain ⟨b, i, d, rfl⟩ : ∃ (b : Fin 16) (i : Fin 2048) (d : Fin 256), x = ix3 b i d := ⟨x 0, x 1, x 2, eq_ix3 x⟩
  rw [ctx_ix3, val_main_v6_apply, attn_eq]
  unfold ctxAt
  refine Finset.sum_congr rfl fun j _ => ?_
  have el : lidx_main_v6 (ix3 b i d) j = ix3 b i j :=
    funext fun a => Fin.ext (by match a with | ⟨0, _⟩ => rfl | ⟨1, _⟩ => rfl | ⟨2, _⟩ => rfl)
  have er : ridx_main_v6 (ix3 b i d) j = ix3 b j d :=
    funext fun a => Fin.ext (by match a with | ⟨0, _⟩ => rfl | ⟨1, _⟩ => rfl | ⟨2, _⟩ => rfl)
  rw [el, er, attn_ix3]

end Cert.ReferenceIdeal.RefValue

end
-- ==== Proof.LibRealSums.lean ====
/-
  Finite sums of extended reals that are real numbers.

  On the extended reals a product does not distribute over a sum in general (at an infinity the
  sum may absorb a term). Where every entry is a real number it does: the coercion from the reals
  is additive and multiplicative, so a finite sum of real entries is the real sum, a real factor
  moves in and out of it, and a product of three real matrices may be bracketed either way,
  entry by entry.
-/
import Mathlib.Data.EReal.Basic
import Mathlib.Data.EReal.Operations
import Mathlib.Algebra.BigOperators.Ring.Finset
import Mathlib.Algebra.BigOperators.Fin

namespace Cert.Lib.RealSums

open scoped BigOperators

/-- An extended real that is a real number: neither infinity. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rwa [max_eq_right h]
  · rwa [max_eq_left h]

/-- The coercion from the reals carries a finite sum to the finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real entries is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Entries that are all real are the coercions of one real family. -/
theorem exists_real_family {ι : Type*} (f : ι → EReal) (hf : ∀ i, IsReal (f i)) :
    ∃ g : ι → ℝ, ∀ i, f i = (g i : EReal) := ⟨fun i => (hf i).choose, fun i => (hf i).choose_spec⟩

/-- A real factor moves into a finite sum of real entries. -/
theorem mul_sum {ι : Type*} (s : Finset ι) (a : EReal) (f : ι → EReal) (ha : IsReal a)
    (hf : ∀ i, IsReal (f i)) : a * ∑ i ∈ s, f i = ∑ i ∈ s, a * f i := by
  obtain ⟨r, rfl⟩ := ha
  obtain ⟨g, hg⟩ := exists_real_family f hf
  simp only [hg, coe_sum, ← EReal.coe_mul, Finset.mul_sum]

/-- A real factor moves into a finite sum of real entries, from the right. -/
theorem sum_mul {ι : Type*} (s : Finset ι) (a : EReal) (f : ι → EReal) (ha : IsReal a)
    (hf : ∀ i, IsReal (f i)) : (∑ i ∈ s, f i) * a = ∑ i ∈ s, f i * a := by
  obtain ⟨r, rfl⟩ := ha
  obtain ⟨g, hg⟩ := exists_real_family f hf
  simp only [hg, coe_sum, ← EReal.coe_mul, Finset.sum_mul]

/-- Three real matrices: the product may be bracketed either way, entry by entry.
    `∑ j, (∑ k, h k * z k j) * w j = ∑ k, h k * ∑ j, z k j * w j` for one row `h` and one column `w`. -/
theorem dot_assoc {κ ι : Type*} [Fintype κ] [Fintype ι] (h : κ → EReal) (z : κ → ι → EReal) (w : ι → EReal)
    (hh : ∀ k, IsReal (h k)) (hz : ∀ k j, IsReal (z k j)) (hw : ∀ j, IsReal (w j)) :
    ∑ j, (∑ k, h k * z k j) * w j = ∑ k, h k * ∑ j, z k j * w j := by
  obtain ⟨h', eh⟩ := exists_real_family h hh
  obtain ⟨w', ew⟩ := exists_real_family w hw
  have ez : ∀ k, ∃ g : ι → ℝ, ∀ j, z k j = (g j : EReal) := fun k => exists_real_family (z k) (hz k)
  choose z' ez' using ez
  simp only [eh, ew, ez', ← EReal.coe_mul, coe_sum]
  congr 1
  simp only [Finset.sum_mul, Finset.mul_sum]
  rw [Finset.sum_comm]
  exact Finset.sum_congr rfl fun k _ => Finset.sum_congr rfl fun j _ => by ring

/-- A real row against a sum of two real columns. -/
theorem dot_add {κ : Type*} [Fintype κ] (h a b : κ → EReal)
    (hh : ∀ k, IsReal (h k)) (ha : ∀ k, IsReal (a k)) (hb : ∀ k, IsReal (b k)) :
    ∑ k, h k * (a k + b k) = ∑ k, h k * a k + ∑ k, h k * b k := by
  obtain ⟨h', eh⟩ := exists_real_family h hh
  obtain ⟨a', ea⟩ := exists_real_family a ha
  obtain ⟨b', eb⟩ := exists_real_family b hb
  simp only [eh, ea, eb, ← EReal.coe_add, ← EReal.coe_mul, coe_sum]
  congr 1
  rw [← Finset.sum_add_distrib]
  exact Finset.sum_congr rfl fun k _ => by ring

end Cert.Lib.RealSums
-- ==== Proof.RealRows.lean ====
/-
  The two bracketings of the logarithmic probability agree on real rows.

  When every entry of the query row and of the key table is a real number, each score is a finite sum of products of
  reals, so a real; floored at the positive constant 0.1 it is a positive real, and its logarithm is a real. The
  row maximum of 2048 real logits, taken from −∞, is then a real number `M`, and for a real `M` the negation
  distributes over `M + l` whatever the extended real `l` is: `a − (M + l) = (a − M) − l`.
-/
import proofs.«120412_j72799695667248_2_alg».proof.Proof.LogAttention
import proofs.«120412_j72799695667248_2_alg».proof.Proof.LibRealSums

noncomputable section

open scoped BigOperators

namespace Cert.LogAttention

open Idealize.ShloMosaic Idealize.ShloMosaic.ValueIdx Cert.Lib.RealSums

/-- The floor is a positive real number (13421773 · 2⁻²⁷, the single-precision number nearest one tenth). -/
theorem floor_real : ∃ c : ℝ, 0 < c ∧ Ideal.ofBits .f32 0x3DCCCCCD#32 = (c : EReal) := by
  simp [Ideal.ofBits, Ideal.ieee]
  exact ⟨13421773 * (2 ^ 27)⁻¹, by positivity, (EReal.coe_mul _ _).symm⟩

/-- The start value of the row maximum is −∞. -/
theorem start_bot : Ideal.ofBits .f32 0xFF800000#32 = ⊥ := by
  simp [Ideal.ofBits, Ideal.ieee]

/-- Choosing by an ordered "less than" on the extended reals. -/
theorem select_olt (x y a b : EReal) : Scalar.select (Ideal.cmp .olt x y) a b = if x < y then a else b := by
  unfold Scalar.select Ideal.cmp
  by_cases h : x < y <;> simp [h]

variable (qr : Fin 256 → EReal) (K : Fin 2048 → Fin 256 → EReal)

/-- A score of real rows is real. -/
theorem isReal_score (hq : ∀ d, IsReal (qr d)) (hK : ∀ j d, IsReal (K j d)) (j : Fin 2048) : IsReal (score qr K j) :=
  isReal_sum _ _ fun d _ => (hq d).mul (hK j d)

/-- A logit of real rows is real: the logarithm of a real number at least the positive floor. -/
theorem isReal_logit (hq : ∀ d, IsReal (qr d)) (hK : ∀ j d, IsReal (K j d)) (j : Fin 2048) : IsReal (logit qr K j) := by
  obtain ⟨c, hc, ec⟩ := floor_real
  obtain ⟨s, es⟩ := isReal_score qr K hq hK j
  unfold logit
  rw [es, ec, select_olt]
  by_cases h : s < c
  · rw [if_pos (EReal.coe_lt_coe_iff.2 h), Ideal.log_coe, if_neg (not_le.2 hc)]
    exact isReal_coe _
  · rw [if_neg (fun h' => h (EReal.coe_lt_coe_iff.1 h')), Ideal.log_coe, if_neg (not_le.2 (lt_of_lt_of_le hc (not_lt.1 h)))]
    exact isReal_coe _

/-- The row maximum of real rows is real. -/
theorem isReal_rowMax (hq : ∀ d, IsReal (qr d)) (hK : ∀ j d, IsReal (K j d)) : IsReal (rowMax qr K) := by
  unfold rowMax
  rw [start_bot, isReal_iff]
  constructor
  · refine ne_of_lt ?_
    rw [Finset.fold_max_lt]
    exact ⟨bot_lt_top, fun j _ => lt_top_iff_ne_top.2 (isReal_iff.1 (isReal_logit qr K hq hK j)).1⟩
  · refine ne_of_gt ?_
    refine lt_of_lt_of_le (bot_lt_iff_ne_bot.2 (isReal_iff.1 (isReal_logit qr K hq hK 0)).2) ?_
    exact (Finset.le_fold_max _).2 (Or.inr ⟨0, Finset.mem_univ _, le_refl _⟩)

/-- Subtracting `M + l` is subtracting `M`, then `l`, when `M` is real. -/
theorem sub_add_real (a l : EReal) (M : ℝ) : a - ((M : EReal) + l) = (a - (M : EReal)) - l := by
  rw [sub_eq_add_neg, sub_eq_add_neg, sub_eq_add_neg,
    EReal.neg_add (Or.inl (EReal.coe_ne_bot M)) (Or.inl (EReal.coe_ne_top M)), sub_eq_add_neg, add_assoc]

/-- ON REAL ROWS THE TWO BRACKETINGS AGREE. -/
theorem logProb'_eq (hq : ∀ d, IsReal (qr d)) (hK : ∀ j d, IsReal (K j d)) (j : Fin 2048) :
    logProb' qr K j = logProb qr K j := by
  obtain ⟨M, eM⟩ := isReal_rowMax qr K hq hK
  unfold logProb' logProb
  rw [eM]
  exact sub_add_real _ _ M

/-- So the two attention arrays of real query and key arrays are one array, -/
theorem attn'_eq (q k : FVec Ideal ⟨3, ![16, 2048, 256]⟩ .f32) (hq : ∀ x, IsReal (q x)) (hk : ∀ x, IsReal (k x)) :
    attn' q k = attn q k := by
  funext x
  unfold attn' attn attnAt' attnAt
  exact logProb'_eq _ _ (fun d => hq _) (fun j d => hk _) _

/-- and the two context arrays likewise. -/
theorem ctx'_eq (q k v : FVec Ideal ⟨3, ![16, 2048, 256]⟩ .f32) (hq : ∀ x, IsReal (q x)) (hk : ∀ x, IsReal (k x)) :
    ctx' q k v = ctx q k v := by
  funext x
  unfold ctx' ctx ctxAt' ctxAt attnAt' attnAt
  refine Finset.sum_congr rfl fun j _ => ?_
  exact congrArg (· * _) (logProb'_eq _ _ (fun d => hq _) (fun j d => hk _) j)

end Cert.LogAttention

end
-- ==== Proof.FiniteInputs.lean ====
/-
  What the precondition says of the argument arrays: every entry is a real number.

  The precondition compares the absolute value of every entry of each of the three arrays with +∞ and takes the
  conjunction over all entries. On the extended reals `|x| < +∞` excludes exactly the two infinities, so every entry
  is a real number.
-/
import proofs.«120412_j72799695667248_2_alg».proof.Pre_finite_inputs
import proofs.«120412_j72799695667248_2_alg».proof.Proof.Gen.Pre_finite_inputs
import proofs.«120412_j72799695667248_2_alg».proof.Proof.LibRealSums
import Idealize.ShloMosaic.PureOps.Ideal
import Idealize.ShloMosaic.Lib.ReduceAll
import Idealize.ShloMosaic.Lib.Pipeline.Value
import Idealize.ShloMosaic.Lib.ValueIdx

noncomputable section

namespace Cert.FiniteInputs

open Idealize.ShloMosaic Cert.Lib.RealSums Cert.Pre_finite_inputs

/-- The single-precision pattern of +∞ is the top of the extended reals. -/
theorem ofBits_inf : Ideal.ofBits .f32 0x7F800000#32 = ⊤ := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) :
    IsReal x := by
  rw [ofBits_inf] at h
  have hlt : max x (-x) < ⊤ := by
    by_contra hn
    have : Ideal.cmp .olt (max x (-x)) ⊤ = 0#1 := by
      unfold Ideal.cmp
      simp [hn]
    rw [this] at h
    exact absurd h (by decide)
  rw [isReal_iff]
  constructor
  · rintro rfl
    simp at hlt
  · rintro rfl
    simp at hlt

instance : Subsingleton S_.Idx := ⟨fun a b => funext fun d => d.elim0⟩

/-- One conjunct of the precondition: all entries of an array compare below +∞ in absolute value. -/
theorem isReal_of_all (x : FVec Ideal S16x2048x256 .f32)
    (e : Host.reduce IntOp.andi
        (cmpf .olt (Host.absf x) (broadcastInDim S16x2048x256 ![] Facts.bcast_S_S16x2048x256 (constant (F := Ideal) S_ .f32 0x7F800000#32)))
        (constantI S_ 1 1#1) Facts.reducesTo_S16x2048x256_S_d0_1_2 Facts.h_S_ ValueIdx.ix0 = 1#1)
    (i : S16x2048x256.Idx) : IsReal (x i) := by
  have hi := Host.reduce_andi_all _ _ _ _ _ e i
  refine isReal_of_abs_lt (x i) ?_
  rw [← hi]
  show _ = Ideal.cmp .olt (max (x i) (-(x i)))
    (broadcastInDim S16x2048x256 ![] Facts.bcast_S_S16x2048x256 (constant (F := Ideal) S_ .f32 0x7F800000#32) i)
  rw [broadcastInDim_apply _ Facts.bcast_S_S16x2048x256 _ i ValueIdx.ix0 (fun a => a.elim0)]
  rfl

/-- Under the precondition every entry of each argument array is a real number. -/
theorem isReal_of_pre (x0 x1 x2 : FVec Ideal S16x2048x256 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_all x0 h0', isReal_of_all x1 h1, isReal_of_all x2 h2⟩

end Cert.FiniteInputs

end
-- ==== Proof.lean ====
/-
  The kernel against its reference: attention with a logarithmic softmax over floored scores.

  Both programs compute, for batch `b`, query position `i`, key `j` and column `d`,

      score  = Σ d, q (b, i, d) · k (b, j, d),          logit = log (score floored at 0.1),
      M      = the maximum over the keys of the logits,  Z     = Σ j, exp (logit j − M),
      attention (b, i, j) = the logit less M and log Z,  context (b, i, d) = Σ j, attention (b, i, j) · v (b, j, d).

  The kernel works on a grid of 16 batches × 2 halves of the query positions; at a point it holds 1024 query rows and the
  batch's whole key and value tables, so each row's maximum and sum are complete, and the 32 blocks it writes back tile
  the two result arrays (Proof/RowBody.lean: the body at an index; Proof/Blocks.lean: the blocks and the arrays).
  It subtracts `M + log Z` from the logit in one step; the reference subtracts `M`, then `log Z`
  (Proof/RefValue.lean reads the reference operation by operation). On the extended reals the two agree as soon as `M`
  is a real number, which the precondition gives: every argument entry is finite (Proof/FiniteInputs.lean), so every
  score is real, every floored score a positive real, every logit and so every row maximum real (Proof/RealRows.lean).
  The matrix products are the same sums on both sides, in whatever order, and a change of float format is the identity.

  The three frames: the kernel's two are the generated frame certificates; the reference has no kernel, and its frame is
  its run with the results dropped. The idealization rewrote nothing, so `preserves` is trivial.
-/
import proofs.«120412_j72799695667248_2_alg».proof.Defs
import proofs.«120412_j72799695667248_2_alg».proof.Proof.Gen.Kernel
import proofs.«120412_j72799695667248_2_alg».proof.Proof.Gen.Kernel.Skeleton
import proofs.«120412_j72799695667248_2_alg».proof.Proof.Gen.Kernel.Launch
import proofs.«120412_j72799695667248_2_alg».proof.Proof.Gen.Kernel.Points
import proofs.«120412_j72799695667248_2_alg».proof.Proof.Gen.Kernel.Frame
import proofs.«120412_j72799695667248_2_alg».proof.Proof.Gen.KernelIdeal
import proofs.«120412_j72799695667248_2_alg».proof.Proof.Gen.KernelIdeal.Skeleton
import proofs.«120412_j72799695667248_2_alg».proof.Proof.Gen.KernelIdeal.Launch
import proofs.«120412_j72799695667248_2_alg».proof.Proof.Gen.KernelIdeal.Points
import proofs.«120412_j72799695667248_2_alg».proof.Proof.Gen.KernelIdeal.Frame
import proofs.«120412_j72799695667248_2_alg».proof.Proof.Gen.KernelIdeal.Value
import proofs.«120412_j72799695667248_2_alg».proof.Proof.Gen.ReferenceIdeal
import proofs.«120412_j72799695667248_2_alg».proof.Proof.Gen.Pre_finite_inputs
import proofs.«120412_j72799695667248_2_alg».proof.Proof.Blocks
import proofs.«120412_j72799695667248_2_alg».proof.Proof.RefValue
import proofs.«120412_j72799695667248_2_alg».proof.Proof.RealRows
import proofs.«120412_j72799695667248_2_alg».proof.Proof.FiniteInputs
import Idealize.ShloMosaic.Adequacy
import Idealize.ShloMosaic.Init

noncomputable section

namespace Cert.Proof

open Idealize.ShloMosaic Idealize.ShloMosaic.TcCoe Idealize.SL.Sem Cert.LogAttention

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on the three arguments, both runs end with the context and attention arrays of the
    arguments: the kernel's bracketing `logit − (M + log Z)` is the reference's `(logit − M) − log Z` because the
    precondition makes every query and key entry, and so every row maximum, a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ctx (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => attn (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun r h c => ?_) (Cert.KernelIdeal.Blocks.run m ρ)
    obtain ⟨hq, hk, -⟩ := Cert.FiniteInputs.isReal_of_pre _ _ _ (hpre c)
    exact ⟨(h c).1.trans (ctx'_eq _ _ _ hq hk), (h c).2.1.trans (attn'_eq _ _ hq hk), (h c).2.2⟩
  · refine (θ_run Cert.ReferenceIdeal.defs _ _).mono (fun r h c => ?_)
      (Cert.ReferenceIdeal.Value.run (F := Ideal) m' ρ')
    refine ⟨?_, ?_, (h c).2.2⟩
    · refine (h c).1.trans ?_
      rw [Cert.ReferenceIdeal.Read.val_main_v6_eq, Cert.ReferenceIdeal.RefValue.ctx_eq, (hagree c).1, (hagree c).2.1,
        (hagree c).2.2]
    · refine (h c).2.1.trans ?_
      rw [Cert.ReferenceIdeal.Read.val_main_v5_eq, Cert.ReferenceIdeal.RefValue.attn_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
